-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x4096x1024 : Shape := ⟨3, ![8, 4096, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S8x2048x1024 .f32) (main_arg1 : FVec F S8x4096x1024 .f32) (main_arg2 : FVec F S8x4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S8x2048x1024 : Shape := ⟨3, ![8, 2048, 1024]⟩
abbrev S8x4096x1024 : Shape := ⟨3, ![8, 4096, 1024]⟩
abbrev S1x1024x1024 : Shape := ⟨3, ![1, 1024, 1024]⟩
abbrev S1x512x1024 : Shape := ⟨3, ![1, 512, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096x1024, .f32⟩
  | .hbm, ⟨3, _⟩ => ⟨S8x2048x1024, .bf16⟩
  | .hbm, ⟨4, _⟩ => ⟨S8x4096x1024, .bf16⟩
  | .hbm, ⟨5, _⟩ => ⟨S8x4096x1024, .bf16⟩
  | .hbm, ⟨6, _⟩ => ⟨S8x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_18 : BitVec 32 := 0#32
  let v32 : BitVec 1 := Scalar.cmpi .ne v31 c0_i32_18
  v32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S1024x1024_S1x1024x1024 : S1024x1024.ShapeCasts S1x1024x1024
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .bf16 = 32 ∨ (Rect.block (s := S8x2048x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .bf16 = 32 ∨ (Rect.block (s := S8x4096x1024) S1x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x4096x1024.size a
  hwx0_2 : ∀ i : grid0.Coords, EltTy.bits .bf16 = 32 ∨ (Rect.block (s := S8x4096x1024) S1x512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x2048x1024.size a
  hwx0_3 : ∀ i : grid0.Coords, EltTy.bits .f32 = 32 ∨ (Rect.block (s := S8x2048x1024) S1x1024x1024.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x4096x1024 : Shape := ⟨3, ![8, 4096, 1024]⟩
abbrev S8x2048x4096 : Shape := ⟨3, ![8, 2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096x1024, .f32⟩
  | .hbm, ⟨3, _⟩ => ⟨S8x2048x4096, .f32⟩
  | .hbm, ⟨4, _⟩ => ⟨S8x2048x4096, .f32⟩
  | .hbm, ⟨5, _⟩ => ⟨S8x2048x4096, .f32⟩
  | .hbm, ⟨6, _⟩ => ⟨S_, .f32⟩
  | .hbm, ⟨7, _⟩ => ⟨S8x2048x4096, .f32⟩
  | .hbm, ⟨8, _⟩ => ⟨S8x2048x4096, .f32⟩
  | .hbm, ⟨9, _⟩ => ⟨S8x2048x4096, .f32⟩
  | .hbm, ⟨10, _⟩ => ⟨S_, .f32⟩
  | .hbm, ⟨11, _⟩ => ⟨S8x2048x4096, .f32⟩
  | .hbm, ⟨12, _⟩ => ⟨S8x2048x4096, .f32⟩
  | .hbm, ⟨13, _⟩ => ⟨S8x2048x4096, .f32⟩
  | .hbm, ⟨14, _⟩ => ⟨S_, .f32⟩
  | .hbm, ⟨15, _⟩ => ⟨S8x2048x4096, .f32⟩
  | .hbm, ⟨16, _⟩ => ⟨S8x2048x4096, .f32⟩
  | .hbm, ⟨17, _⟩ => ⟨S_, .f32⟩
  | .hbm, ⟨18, _⟩ => ⟨S8x2048x4096, .f32⟩
  | .hbm, ⟨19, _⟩ => ⟨S8x2048x4096, .f32⟩
  | .hbm, ⟨20, _⟩ => ⟨S8x2048x4096, .f32⟩
  | .hbm, ⟨21, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x1024_S8x4096x1024_S8x2048x4096_2_2_1_1_0_0_wf : DotDims.WF S8x2048x1024 S8x4096x1024 S8x2048x4096 [2] [2] [1] [1] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x4096x1024_S8x2048x4096_2_2_1_1_0_0 : DotDims S8x2048x1024 S8x4096x1024 S8x2048x4096 where
  lhsContracting := [2]
  rhsContracting := [2]
  lhsNonContracting := [1]
  rhsNonContracting := [1]
  lhsBatch := [0]
  rhsBatch := [0]
  wf := dot_S8x2048x1024_S8x4096x1024_S8x2048x4096_2_2_1_1_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.Pieces.lean ====
/-
  What each control case of the kernel body leaves behind, as values. The body keeps a [1024, 1024] running block in a
  scratch buffer. At the first hidden block of a run it stores the zero block and then the zero block plus this block's
  product; at every later hidden block it stores what the scratch held plus this block's product; at the last hidden
  block it also stores the scratch, given a leading unit axis, into the output's staging buffer. Each store covers its
  whole buffer, and each load reads a whole buffer, so what a case leaves is the store's value of the loaded blocks:
  the running block's update (one and the same function in all three cases, of the three input blocks and of what the
  scratch held, the zero block at a run's start) and, at the last block, that updated block reshaped.
-/
import proofs.«101368_j42966852829514_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- A store or load at the origin of a rank-2 buffer. -/
theorem hz2 : (![0, 0] : Fin 2 → Nat) = fun _ => 0 := funext fun a => by fin_cases a <;> rfl
/-- A store or load at the origin of a rank-3 buffer. -/
theorem hz3 : (![0, 0, 0] : Fin 3 → Nat) = fun _ => 0 := funext fun a => by fin_cases a <;> rfl

/-- At a run's first hidden block the scratch ends holding the zero block updated by this block's product: the second
    store's value, whose read of the scratch is a read-back of the zero block just stored. -/
theorem scratch_first (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : cond0_0 i) (hc1 : ¬cond0_1 i) (x0 : Vec F S1x1024x1024 .bf16) (x1 : Vec F S1x512x1024 .bf16) (x2 : Vec F S1x512x1024 .bf16) :
    sout0_A_0 c i arg3 harg3 arg4 harg4 arg5 harg5 arg6 harg6 arg7 harg7 hc0 hc1 x0 x1 x2 = k0_pay3 x0 x1 x2 (k0_pay2 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, harg3.read_unread, harg4.read_unread, harg5.read_unread, harg7.read_unread, View.ld_unit_zero (S := S1x1024x1024) hz3, View.ld_unit_zero (S := S1x512x1024) hz3, View.ld_unit_zero (S := S1024x1024) hz2]

/-- At a middle hidden block the scratch ends holding what it held, updated by this block's product. -/
theorem scratch_middle (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : ¬cond0_1 i) (x0 : Vec F S1x1024x1024 .bf16) (x1 : Vec F S1x512x1024 .bf16) (x2 : Vec F S1x512x1024 .bf16) (xs0 : Vec F S1024x1024 .f32) :
    sout0_B_0 c i arg3 harg3 arg4 harg4 arg5 harg5 arg6 harg6 arg7 harg7 hc0 hc1 x0 x1 x2 xs0 = k0_pay3 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz2]
  simp only [View.readAt_eq_ld, harg3.read_unread, harg4.read_unread, harg5.read_unread, harg7.read_unread, View.ld_unit_zero (S := S1x1024x1024) hz3, View.ld_unit_zero (S := S1x512x1024) hz3, View.ld_unit_zero (S := S1024x1024) hz2]

/-- At a run's last hidden block the scratch is updated in the same way, -/
theorem scratch_last (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i) (x0 : Vec F S1x1024x1024 .bf16) (x1 : Vec F S1x512x1024 .bf16) (x2 : Vec F S1x512x1024 .bf16) (xs0 : Vec F S1024x1024 .f32) :
    sout0_C_0 c i arg3 harg3 arg4 harg4 arg5 harg5 arg6 harg6 arg7 harg7 hc0 hc1 x0 x1 x2 xs0 = k0_pay3 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg7.read_unread, View.ld_unit_zero (S := S1x1024x1024) hz3, View.ld_unit_zero (S := S1x512x1024) hz3, View.ld_unit_zero (S := S1024x1024) hz2]

/-- and the output's staging buffer ends holding that updated block, read back from the scratch and given its leading
    unit axis. -/
theorem output_last (c : Dev nD) (i : grid0.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i) (x0 : Vec F S1x1024x1024 .bf16) (x1 : Vec F S1x512x1024 .bf16) (x2 : Vec F S1x512x1024 .bf16) (xs0 : Vec F S1024x1024 .f32) :
    out0_C_3 c i arg3 harg3 arg4 harg4 arg5 harg5 arg6 harg6 arg7 harg7 hc0 hc1 x0 x1 x2 xs0 = k0_pay1 (k0_pay3 x0 x1 x2 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz3, View.readCov_unit_zero (S := S1024x1024) _ hz2]
  simp only [View.readAt_eq_ld, harg3.read_unread, harg4.read_unread, harg5.read_unread, harg7.read_unread, View.ld_unit_zero (S := S1x1024x1024) hz3, View.ld_unit_zero (S := S1x512x1024) hz3, View.ld_unit_zero (S := S1024x1024) hz2]

end Cert.KernelIdeal.Pieces

end
-- ==== Proof.Spec.lean ====
/-
  The expert feed-forward block as ONE function of its three argument arrays, on the extended reals:
  for expert e, token r and output column q,
      out (e, r, q) = Σ_f gelu (Σ_k x (e, r, k) · w1 (e, f, k)) · w2 (e, f, q),
  f over the 4096 hidden units, k over the 1024 input columns, gelu the tanh form. The hidden axis splits into eight
  blocks of 512; the sum over f is the sum over the blocks of each block's 512-term sum, in any additive commutative
  monoid: no finiteness of any term is needed.
-/
import Idealize.ShloMosaic.PureOps.Ideal.Laws
import Idealize.ShloMosaic.Lib.ValueIdx

noncomputable section

namespace Cert.MoeMlp

open Idealize.ShloMosaic Idealize.ShloMosaic.ValueIdx

/-- The tanh form of gelu, h · (½ · (1 + tanh (c₂ · (h + c₁ · h³)))), the cube grouped h · (h · h); the four constants
    stay the binary32 words both programs spell. -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

/-- Grouping the cube (h · h) · h instead gives the same value: the product of extended reals commutes. -/
theorem gelu_cube_comm (h : EReal) :
    h * (Ideal.ofBits .f32 0x3F000000#32 * (Ideal.ofBits .f32 0x3F800000#32
      + Ideal.tanh (Ideal.ofBits .f32 0x3F4C422A#32 * (h + Ideal.ofBits .f32 0x3D372713#32 * ((h * h) * h))))) = gelu h := by
  unfold gelu
  rw [mul_comm (h * h) h]

/-- Hidden unit f of block b at offset j. -/
abbrev hidIdx (b : Fin 8) (j : Fin 512) : Fin 4096 :=
  ⟨512 * b.val + j.val, by have := b.isLt; have := j.isLt; omega⟩

section
variable (x : (⟨3, ![8, 2048, 1024]⟩ : Shape).Idx → EReal) (w1 w2 : (⟨3, ![8, 4096, 1024]⟩ : Shape).Idx → EReal)

/-- The pre-activation of hidden unit f for expert e and token r: row r of x against row f of w1. -/
def hid (e : Fin 8) (r : Fin 2048) (f : Fin 4096) : EReal :=
  ∑ k : Fin 1024, x (ix3 e r k) * w1 (ix3 e f k)

/-- The output entry (e, r, q). -/
def outAt (e : Fin 8) (r : Fin 2048) (q : Fin 1024) : EReal :=
  ∑ f : Fin 4096, gelu (hid x w1 e r f) * w2 (ix3 e f q)

/-- What hidden block b contributes to output entry (e, r, q). -/
def blockAt (e : Fin 8) (r : Fin 2048) (b : Fin 8) (q : Fin 1024) : EReal :=
  ∑ j : Fin 512, gelu (hid x w1 e r (hidIdx b j)) * w2 (ix3 e (hidIdx b j) q)

/-- The whole output array. -/
def out : (⟨3, ![8, 2048, 1024]⟩ : Shape).Idx → EReal :=
  fun i => outAt x w1 w2 (i 0) (i 1) (i 2)

end

/-- A sum over 4096 = 8 · 512 terms is the sum over the eight blocks of each block's 512 terms. -/
theorem sum_blocks {β : Type*} [AddCommMonoid β] (g : Fin 4096 → β) :
    ∑ f : Fin 4096, g f = ∑ b : Fin 8, ∑ j : Fin 512, g (hidIdx b j) := by
  have e := (Equiv.sum_comp (finProdFinEquiv (m := 8) (n := 512)) (fun f : Fin (8 * 512) => g f)).symm
  refine e.trans ?_
  rw [Fintype.sum_prod_type]
  refine Finset.sum_congr rfl fun b _ => Finset.sum_congr rfl fun j _ => congrArg g (Fin.ext ?_)
  show j.val + 512 * b.val = 512 * b.val + j.val
  omega

/-- So an output entry is the sum of its eight hidden blocks' contributions. -/
theorem outAt_eq_sum_blocks (x : (⟨3, ![8, 2048, 1024]⟩ : Shape).Idx → EReal)
    (w1 w2 : (⟨3, ![8, 4096, 1024]⟩ : Shape).Idx → EReal) (e : Fin 8) (r : Fin 2048) (q : Fin 1024) :
    outAt x w1 w2 e r q = ∑ b : Fin 8, blockAt x w1 w2 e r b q := by
  unfold outAt blockAt
  exact sum_blocks _

end Cert.MoeMlp

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.Payload.lean ====
/-
  The running block's update, read at an entry, on the extended reals. The body forms, from a [1, 1024, 1024] block X of
  tokens and two [1, 512, 1024] blocks W1, W2 of hidden-unit rows,
      H = X · W1ᵀ            (1024 tokens by 512 hidden units: row p of X against row j of W1),
      A = gelu H             (entry by entry),
      acc + A · W2           (1024 tokens by 1024 output columns),
  so entry (p, q) of the update is acc (p, q) + Σ_j gelu (Σ_k X (p, k) · W1 (j, k)) · W2 (j, q): both products are taken
  into a zero accumulator, narrowing the activation to a shorter float format changes no extended real, and the leading
  unit axis of a block is dropped on the way in and restored on the way out.
-/
import proofs.«101368_j42966852829514_2_alg».proof.Proof.Gen.KernelIdeal.Skeleton
import proofs.«101368_j42966852829514_2_alg».proof.Proof.Spec
import proofs.«101368_j42966852829514_2_alg».proof.Proof.LibMatmulPlain
import proofs.«101368_j42966852829514_2_alg».proof.Proof.LibMatmulRows
import Idealize.ShloMosaic.Lib.Pipeline.Value
import Idealize.ShloMosaic.Lib.ValueIdx

noncomputable section

namespace Cert.KernelIdeal.Payload

open Cert.KernelIdeal Cert.KernelIdeal.Gen Cert.MoeMlp
open Idealize.ShloMosaic Idealize.ShloMosaic.ValueIdx

/-! ## The layout steps -/

/-- A [1, a, b] block viewed as an [a, b] matrix reads entry (p, k) at (0, p, k). -/
theorem dropUnit_apply {α : Type} {a b : Nat} (v : (⟨3, ![1, a, b]⟩ : Shape).Idx → α)
    (h : (⟨3, ![1, a, b]⟩ : Shape).ShapeCasts ⟨2, ![a, b]⟩) (p : Fin a) (k : Fin b) :
    shapeCast ⟨2, ![a, b]⟩ v h (ix2 p k) = v (ix3 0 p k) := by
  rw [shapeCast_dropUnit_apply ![a, b] v h (ix2 p k)]
  refine congrArg v (funext fun d => ?_)
  match d with
  | ⟨0, _⟩ => rfl
  | ⟨1, _⟩ => rfl
  | ⟨2, _⟩ => rfl

/-- An [a, b] matrix stored as a [1, a, b] block reads entry (0, p, q) at (p, q). -/
theorem addUnit_apply {α : Type} {a b : Nat} (v : (⟨2, ![a, b]⟩ : Shape).Idx → α)
    (h : (⟨2, ![a, b]⟩ : Shape).ShapeCasts ⟨3, ![1, a, b]⟩) (p : Fin a) (q : Fin b) :
    shapeCast ⟨3, ![1, a, b]⟩ v h (ix3 0 p q) = v (ix2 p q) := by
  rw [shapeCast_addUnit_apply ![a, b] v h (ix3 0 p q)]
  refine congrArg v (funext fun d => ?_)
  match d with
  | ⟨0, _⟩ => rfl
  | ⟨1, _⟩ => rfl

/-! ## The two products -/

/-- Tokens against hidden-unit rows: entry (p, j) is row p of the tokens against row j of the hidden units. -/
theorem hidden_apply (a : FVec Ideal S1024x1024 .bf16) (w : FVec Ideal S512x1024 .bf16) (p : Fin 1024) (j : Fin 512) :
    matmul dot_S1024x1024_S512x1024_S1024x512_1_1_0_0_n_n none a w (constant S1024x512 .f32 0x00000000#32) (ix2 p j)
      = ∑ k : Fin 1024, a (ix2 p k) * w (ix2 j k) :=
  Cert.LibMatmulRows.matmul_zero_apply dot_S1024x1024_S512x1024_S1024x512_1_1_0_0_n_n_wf none a w p j

/-- Activations against hidden-unit rows: entry (p, q) sums over the hidden units j. -/
theorem mix_apply (a : FVec Ideal S1024x512 .bf16) (w : FVec Ideal S512x1024 .bf16) (p q : Fin 1024) :
    matmul dot_S1024x512_S512x1024_S1024x1024_1_0_0_1_n_n none a w (constant S1024x1024 .f32 0x00000000#32) (ix2 p q)
      = ∑ j : Fin 512, a (ix2 p j) * w (ix2 j q) :=
  Cert.LibMatmulPlain.matmul_zero_apply dot_S1024x512_S512x1024_S1024x1024_1_0_0_1_n_n_wf none a w p q

/-! ## The activation -/

/-- The body's activation chain on a [1024, 512] matrix of pre-activations, -/
def act (h : FVec Ideal S1024x512 .f32) : FVec Ideal S1024x512 .f32 :=
  mulf h (mulf (broadcast S1024x512 (Scalar.ofBits .f32 0x3F000000#32))
    (addf (broadcast S1024x512 (Scalar.ofBits .f32 0x3F800000#32))
      (tanh (mulf (broadcast S1024x512 (Scalar.ofBits .f32 0x3F4C422A#32))
        (addf h (mulf (broadcast S1024x512 (Scalar.ofBits .f32 0x3D372713#32)) (mulf h (mulf h h))))))))

/-- which is gelu entry by entry: every step of the chain acts on one entry. -/
theorem act_apply (h : FVec Ideal S1024x512 .f32) (i : S1024x512.Idx) : act h i = gelu (h i) := rfl

/-! ## The update -/

/-- What one grid point adds to entry (p, q) of the running block, of its three input blocks. -/
def blockTerm (x0 : Vec Ideal S1x1024x1024 .bf16) (x1 x2 : Vec Ideal S1x512x1024 .bf16) (p q : Fin 1024) : EReal :=
  ∑ j : Fin 512, gelu (∑ k : Fin 1024, x0 (ix3 0 p k) * x1 (ix3 0 j k)) * x2 (ix3 0 j q)

/-- The update as the body spells it, the activation chain folded into `act`. -/
theorem update_eq (x0 : Vec Ideal S1x1024x1024 .bf16) (x1 x2 : Vec Ideal S1x512x1024 .bf16) (acc : Vec Ideal S1024x1024 .f32) :
    k0_pay3 (F := Ideal) x0 x1 x2 acc
      = shapeCast S1024x1024 (addf acc (matmul dot_S1024x512_S512x1024_S1024x1024_1_0_0_1_n_n none
          (truncf .bf16 (act (matmul dot_S1024x1024_S512x1024_S1024x512_1_1_0_0_n_n none
            (shapeCast S1024x1024 x0 shapeCasts_S1x1024x1024_S1024x1024 : FVec Ideal S1024x1024 .bf16)
            (shapeCast S512x1024 x1 shapeCasts_S1x512x1024_S512x1024 : FVec Ideal S512x1024 .bf16)
            (constant S1024x512 .f32 0x00000000#32))) bitsLt_bf16_f32 : FVec Ideal S1024x512 .bf16)
          (shapeCast S512x1024 x2 shapeCasts_S1x512x1024_S512x1024 : FVec Ideal S512x1024 .bf16)
          (constant S1024x1024 .f32 0x00000000#32)))
        shapeCasts_S1024x1024_S1024x1024 := rfl

/-- Entry (p, q) of the updated running block: what was there plus this point's term. -/
theorem update_apply (x0 : Vec Ideal S1x1024x1024 .bf16) (x1 x2 : Vec Ideal S1x512x1024 .bf16) (acc : Vec Ideal S1024x1024 .f32)
    (p q : Fin 1024) :
    k0_pay3 (F := Ideal) x0 x1 x2 acc (ix2 p q) = acc (ix2 p q) + blockTerm x0 x1 x2 p q := by
  rw [update_eq, shapeCast_self, addf_apply, mix_apply]
  refine congrArg (acc (ix2 p q) + ·) (Finset.sum_congr rfl fun j _ => ?_)
  rw [truncf_apply, act_apply, hidden_apply, dropUnit_apply x2 _ j q]
  refine congrArg (fun s => gelu s * x2 (ix3 0 j q)) (Finset.sum_congr rfl fun k _ => ?_)
  rw [dropUnit_apply x0 _ p k, dropUnit_apply x1 _ j k]

/-- The zero block the reset stores reads zero at every entry. -/
theorem zero_apply (i : S1024x1024.Idx) : k0_pay2 (F := Ideal) i = 0 := by
  show shapeCast S1024x1024 (broadcast S1024x1024 (Scalar.ofBits (F := Ideal) .f32 0x00000000#32)) shapeCasts_S1024x1024_S1024x1024 i = 0
  rw [shapeCast_self]
  exact Ideal.ofBits_zero_f32

/-- The output store gives the running block its leading unit axis: entry (0, p, q) is the block's (p, q). -/
theorem store_apply (v : Vec Ideal S1024x1024 .f32) (p q : Fin 1024) :
    k0_pay1 (F := Ideal) v (ix3 0 p q) = v (ix2 p q) :=
  addUnit_apply v shapeCasts_S1024x1024_S1x1024x1024 p q

end Cert.KernelIdeal.Payload

end
-- ==== Proof.Blocks.lean ====
/-
  What the kernel's windows read at a grid point. The grid has 8 · 2 · 8 = 128 points, point t being expert t / 16, token
  tile (t / 8) mod 2 and hidden block t mod 8. The token window's block at t is rows 1024 · ((t / 8) mod 2) … + 1023 of
  expert t / 16 of x; each weight window's block is rows 512 · (t mod 8) … + 511 of expert t / 16 of its weight array;
  the output window's block is where the token window's is. The arrays the windows stage are the argument arrays
  narrowed to a shorter float format on the host, which changes no extended real.
-/
import proofs.«101368_j42966852829514_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The staged arrays are the arguments -/

/-- The token array as the region finds it is the argument x. -/
theorem staged_x (c : Dev nD) : (V m c main_v0 : S8x2048x1024.Idx → EReal) = m ((c : Thread nD τ).loc main_arg0) := by
  dsimp only [Gen.V, Gen.hostOps0]; after_results; rfl

/-- The first weight array as the region finds it is the argument w1. -/
theorem staged_w1 (c : Dev nD) : (V m c main_v1 : S8x4096x1024.Idx → EReal) = m ((c : Thread nD τ).loc main_arg1) := by
  dsimp only [Gen.V, Gen.hostOps0]; after_results; rfl

/-- The second weight array as the region finds it is the argument w2. -/
theorem staged_w2 (c : Dev nD) : (V m c main_v2 : S8x4096x1024.Idx → EReal) = m ((c : Thread nD τ).loc main_arg2) := by
  dsimp only [Gen.V, Gen.hostOps0]; after_results; rfl

/-! ## The index maps over the grid -/

/-- The four windows' block indices at point t, decided once over the 128 points. -/
theorem idx_facts : ∀ t : Fin cfg0.N,
    win0_0.index t (0 : Fin 3) = t.val / 16 ∧ win0_0.index t (1 : Fin 3) = t.val / 8 % 2 ∧ win0_0.index t (2 : Fin 3) = 0
    ∧ win0_1.index t (0 : Fin 3) = t.val / 16 ∧ win0_1.index t (1 : Fin 3) = t.val % 8 ∧ win0_1.index t (2 : Fin 3) = 0
    ∧ win0_2.index t (0 : Fin 3) = t.val / 16 ∧ win0_2.index t (1 : Fin 3) = t.val % 8 ∧ win0_2.index t (2 : Fin 3) = 0
    ∧ win0_3.index t (0 : Fin 3) = t.val / 16 ∧ win0_3.index t (1 : Fin 3) = t.val / 8 % 2 ∧ win0_3.index t (2 : Fin 3) = 0 :=
  (by decide +kernel : ∀ t : Fin grid0.N, _)

/-- A point is below 128. -/
theorem point_lt (t : Fin cfg0.N) : t.val < 128 := lt_of_lt_of_eq t.isLt N_0

/-- Point t's expert, -/
abbrev expert (t : Fin cfg0.N) : Fin 8 := ⟨t.val / 16, by have := point_lt t; omega⟩
/-- the token row its token tile's row p is, -/
abbrev tokenRow (t : Fin cfg0.N) (p : Fin 1024) : Fin 2048 :=
  ⟨1024 * (t.val / 8 % 2) + p.val, by have := p.isLt; omega⟩
/-- and the hidden unit its hidden block's row j is. -/
abbrev hiddenRow (t : Fin cfg0.N) (j : Fin 512) : Fin 4096 :=
  ⟨512 * (t.val % 8) + j.val, by have := j.isLt; omega⟩

/-! ## The blocks read at an entry -/

/-- Entry (0, p, k) of the token block at point t is x at (expert, token row, k). -/
theorem tokens_apply (c : Dev nD) (t : Fin cfg0.N) (p k : Fin 1024) :
    (iblk m c 0 t : S1x1024x1024.Idx → EReal) (ix3 0 p k) = m ((c : Thread nD τ).loc main_arg0) (ix3 (expert t) (tokenRow t p) k) := by
  obtain ⟨e0, e1, e2, -⟩ := idx_facts t
  unfold iblk
  rw [View.read_apply]
  show (V m c main_v0 : S8x2048x1024.Idx → EReal) (((cfg0.win 0).blk t).view.emb (ix3 0 p k)) = _
  rw [staged_x]
  refine congrArg _ (funext fun a => Fin.ext ?_)
  match a with
  | ⟨0, _⟩ => show win0_0.index t (0 : Fin 3) * 1 + 1 * 0 = t.val / 16; omega
  | ⟨1, _⟩ => show win0_0.index t (1 : Fin 3) * 1024 + 1 * p.val = 1024 * (t.val / 8 % 2) + p.val; omega
  | ⟨2, _⟩ => show win0_0.index t (2 : Fin 3) * 1024 + 1 * k.val = k.val; omega

/-- Entry (0, j, k) of the first weight block at point t is w1 at (expert, hidden unit, k). -/
theorem w1_apply (c : Dev nD) (t : Fin cfg0.N) (j : Fin 512) (k : Fin 1024) :
    (iblk m c 1 t : S1x512x1024.Idx → EReal) (ix3 0 j k) = m ((c : Thread nD τ).loc main_arg1) (ix3 (expert t) (hiddenRow t j) k) := by
  obtain ⟨-, -, -, e0, e1, e2, -⟩ := idx_facts t
  unfold iblk
  rw [View.read_apply]
  show (V m c main_v1 : S8x4096x1024.Idx → EReal) (((cfg0.win 1).blk t).view.emb (ix3 0 j k)) = _
  rw [staged_w1]
  refine congrArg _ (funext fun a => Fin.ext ?_)
  match a with
  | ⟨0, _⟩ => show win0_1.index t (0 : Fin 3) * 1 + 1 * 0 = t.val / 16; omega
  | ⟨1, _⟩ => show win0_1.index t (1 : Fin 3) * 512 + 1 * j.val = 512 * (t.val % 8) + j.val; omega
  | ⟨2, _⟩ => show win0_1.index t (2 : Fin 3) * 1024 + 1 * k.val = k.val; omega

/-- Entry (0, j, q) of the second weight block at point t is w2 at (expert, hidden unit, q). -/
theorem w2_apply (c : Dev nD) (t : Fin cfg0.N) (j : Fin 512) (q : Fin 1024) :
    (iblk m c 2 t : S1x512x1024.Idx → EReal) (ix3 0 j q) = m ((c : Thread nD τ).loc main_arg2) (ix3 (expert t) (hiddenRow t j) q) := by
  obtain ⟨-, -, -, -, -, -, e0, e1, e2, -⟩ := idx_facts t
  unfold iblk
  rw [View.read_apply]
  show (V m c main_v2 : S8x4096x1024.Idx → EReal) (((cfg0.win 2).blk t).view.emb (ix3 0 j q)) = _
  rw [staged_w2]
  refine congrArg _ (funext fun a => Fin.ext ?_)
  match a with
  | ⟨0, _⟩ => show win0_2.index t (0 : Fin 3) * 1 + 1 * 0 = t.val / 16; omega
  | ⟨1, _⟩ => show win0_2.index t (1 : Fin 3) * 512 + 1 * j.val = 512 * (t.val % 8) + j.val; omega
  | ⟨2, _⟩ => show win0_2.index t (2 : Fin 3) * 1024 + 1 * q.val = q.val; omega

end Cert.KernelIdeal.Blocks

end
-- ==== Proof.Fold.lean ====
/-
  The kernel's result array is the specification. Along a run of eight consecutive grid points — one expert, one token
  tile, the eight hidden blocks in order — the scratch block is reset at the first point and every point adds its own
  hidden block's contribution, so after the run's last point entry (p, q) of the scratch is zero plus the sum of the
  eight contributions: the whole sum over the 4096 hidden units for that expert, token row and output column. That last
  point stores the scratch into the output's block, the only points that write the output back are the runs' last
  points, and their sixteen blocks tile the result array.
-/
import proofs.«101368_j42966852829514_2_alg».proof.Proof.Gen.KernelIdeal.Value
import proofs.«101368_j42966852829514_2_alg».proof.Proof.Pieces
import proofs.«101368_j42966852829514_2_alg».proof.Proof.Payload
import proofs.«101368_j42966852829514_2_alg».proof.Proof.Blocks
import proofs.«101368_j42966852829514_2_alg».proof.Proof.Spec
import Idealize.ShloMosaic.Lib.Pipeline.Value
import Idealize.ShloMosaic.Lib.ValueIdx

noncomputable section

namespace Cert.KernelIdeal.Fold

open Cert.KernelIdeal Cert.KernelIdeal.Gen Cert.KernelIdeal.Blocks Cert.MoeMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One point's contribution -/

/-- What grid point n adds to an entry of the scratch block, of its three input blocks (zero past the grid, where it is
    never used). -/
def pointTerm (c : Dev nD) (n : ℕ) (i : S1024x1024.Idx) : EReal :=
  if hb : n < cfg0.N then Payload.blockTerm (iblk m c 0 (⟨n, hb⟩ : Fin cfg0.N)) (iblk m c 1 (⟨n, hb⟩ : Fin cfg0.N)) (iblk m c 2 (⟨n, hb⟩ : Fin cfg0.N)) (i 0) (i 1) else 0

/-- At a run's first point the scratch ends at zero plus the point's contribution, whatever it held. -/
theorem step_first (c : Dev nD) (n : ℕ) (hb : n < cfg0.N) (h0 : n % 8 = 0) (acc : Vec Ideal S1024x1024 .f32)
    (i : S1024x1024.Idx) : Value.scAt0_0 m c n hb acc i = 0 + pointTerm m c n i := by
  obtain ⟨p, q, rfl⟩ : ∃ (p q : Fin 1024), i = ix2 p q := ⟨i 0, i 1, eq_ix2 i⟩
  have h1 : ¬n % 8 = 7 := by omega
  unfold Value.scAt0_0 pointTerm
  rw [dif_pos h0, dif_neg h1, dif_pos hb]
  refine (congrFun (Pieces.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) (ix2 p q)).trans ?_
  refine (Payload.update_apply (iblk m c 0 (⟨n, hb⟩ : Fin cfg0.N)) (iblk m c 1 (⟨n, hb⟩ : Fin cfg0.N)) (iblk m c 2 (⟨n, hb⟩ : Fin cfg0.N)) (k0_pay2 (F := Ideal)) p q).trans ?_
  rw [Payload.zero_apply]

/-- At every later point of a run it ends at what it held plus the point's contribution. -/
theorem step_later (c : Dev nD) (n : ℕ) (hb : n < cfg0.N) (h0 : ¬n % 8 = 0) (acc : Vec Ideal S1024x1024 .f32)
    (i : S1024x1024.Idx) : Value.scAt0_0 m c n hb acc i = acc i + pointTerm m c n i := by
  obtain ⟨p, q, rfl⟩ : ∃ (p q : Fin 1024), i = ix2 p q := ⟨i 0, i 1, eq_ix2 i⟩
  unfold Value.scAt0_0 pointTerm
  rw [dif_neg h0, dif_pos hb]
  by_cases h1 : n % 8 = 7
  · rw [dif_pos h1]
    refine (congrFun (Pieces.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) (ix2 p q)).trans ?_
    exact Payload.update_apply (iblk m c 0 (⟨n, hb⟩ : Fin cfg0.N)) (iblk m c 1 (⟨n, hb⟩ : Fin cfg0.N)) (iblk m c 2 (⟨n, hb⟩ : Fin cfg0.N)) acc p q
  · rw [dif_neg h1]
    refine (congrFun (Pieces.scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) (ix2 p q)).trans ?_
    exact Payload.update_apply (iblk m c 0 (⟨n, hb⟩ : Fin cfg0.N)) (iblk m c 1 (⟨n, hb⟩ : Fin cfg0.N)) (iblk m c 2 (⟨n, hb⟩ : Fin cfg0.N)) acc p q

/-! ## The scratch after a point: the run's sum so far -/

/-- After point t the scratch holds, entry by entry, zero plus the contributions of the run's points up to t. -/
theorem scratch_eq (c : Dev nD) (t : Fin cfg0.N) (i : S1024x1024.Idx) :
    (outsAt0 m c t.val t.isLt).2 i
      = 0 + ∑ s ∈ Finset.range (t.val % 8 + 1), pointTerm m c (8 * (t.val / 8) + s) i := by
  rw [Value.soutsAt0_0_eq m c t]
  exact Pipeline.accAt_add_apply _ _ (fun _ => (0 : EReal)) (pointTerm m c) (8 * (t.val / 8)) 7
    (fun h i => step_first m c _ h (Nat.mul_mod_right 8 _) _ i)
    (fun n h acc i hlt hle => step_later m c n h (by omega) acc i)
    (t.val % 8) (by omega) _ i

/-! ## A point's contribution is its hidden block's, of the argument arrays -/

/-- Point n's contribution to entry (p, q) is hidden block (n mod 8)'s contribution to the output entry at point n's
    expert, at row p of its token tile, and column q. -/
theorem pointTerm_eq (c : Dev nD) (n : Fin cfg0.N) (p q : Fin 1024) :
    pointTerm m c n.val (ix2 p q)
      = blockAt (m ((c : Thread nD τ).loc main_arg0)) (m ((c : Thread nD τ).loc main_arg1)) (m ((c : Thread nD τ).loc main_arg2)) (expert n) (tokenRow n p) ⟨n.val % 8, Nat.mod_lt _ (by decide)⟩ q := by
  obtain ⟨n, hb⟩ := n
  unfold pointTerm
  rw [dif_pos hb]
  unfold Payload.blockTerm blockAt hid
  refine Finset.sum_congr rfl fun j _ => ?_
  rw [Blocks.w2_apply m c (⟨n, hb⟩ : Fin cfg0.N) j q]
  refine congrArg (fun s => gelu s * _) (Finset.sum_congr rfl fun k _ => ?_)
  rw [Blocks.tokens_apply m c (⟨n, hb⟩ : Fin cfg0.N) p k, Blocks.w1_apply m c (⟨n, hb⟩ : Fin cfg0.N) j k]

/-- So the contributions of a whole run add up to the specification's output entry. -/
theorem run_sum (c : Dev nD) (t : Fin cfg0.N) (h7 : t.val % 8 = 7) (p q : Fin 1024) :
    ∑ s ∈ Finset.range (t.val % 8 + 1), pointTerm m c (8 * (t.val / 8) + s) (ix2 p q)
      = outAt (m ((c : Thread nD τ).loc main_arg0)) (m ((c : Thread nD τ).loc main_arg1)) (m ((c : Thread nD τ).loc main_arg2)) (expert t) (tokenRow t p) q := by
  have hN := point_lt t
  rw [show t.val % 8 + 1 = 8 by omega, outAt_eq_sum_blocks,
    ← Fin.sum_univ_eq_sum_range (fun s => pointTerm m c (8 * (t.val / 8) + s) (ix2 p q)) 8]
  refine Finset.sum_congr rfl fun b _ => ?_
  have hb := b.isLt
  have hn : 8 * (t.val / 8) + b.val < cfg0.N :=
    lt_of_lt_of_eq (by omega : 8 * (t.val / 8) + b.val < 128) (show (128 : ℕ) = cfg0.N from N_0.symm)
  rw [pointTerm_eq m c ⟨8 * (t.val / 8) + b.val, hn⟩ p q]
  have e1 : expert ⟨8 * (t.val / 8) + b.val, hn⟩ = expert t := Fin.ext (by show (8 * (t.val / 8) + b.val) / 16 = t.val / 16; omega)
  have e2 : tokenRow ⟨8 * (t.val / 8) + b.val, hn⟩ p = tokenRow t p :=
    Fin.ext (by show 1024 * ((8 * (t.val / 8) + b.val) / 8 % 2) + p.val = 1024 * (t.val / 8 % 2) + p.val; omega)
  have e3 : (⟨(8 * (t.val / 8) + b.val) % 8, Nat.mod_lt _ (by decide)⟩ : Fin 8) = b := Fin.ext (by show (8 * (t.val / 8) + b.val) % 8 = b.val; omega)
  rw [e1, e2]
  exact congrArg (fun b' => blockAt (m ((c : Thread nD τ).loc main_arg0)) (m ((c : Thread nD τ).loc main_arg1)) (m ((c : Thread nD τ).loc main_arg2)) (expert t) (tokenRow t p) b' q) e3

/-! ## What a run's last point writes back, and the cover -/

/-- At a run's last point the output's staging buffer holds the scratch just updated, with its leading unit axis. -/
theorem output_eq_store (c : Dev nD) (t : Fin cfg0.N) (h0 : ¬t.val % 8 = 0) (h7 : t.val % 8 = 7) :
    (outsAt0 m c t.val t.isLt).1 = k0_pay1 (F := Ideal) (outsAt0 m c t.val t.isLt).2 := by
  rw [outsAt0_C m c t h0 h7]
  dsimp only
  refine (Pieces.output_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2).trans ?_
  exact congrArg (k0_pay1 (F := Ideal)) (Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2).symm

/-- What a writing point writes back is its block of the specification's output array. -/
theorem flushed_eq (c : Dev nD) (t : Fin cfg0.N) (hf : (cfg0.win 3).flush t = true) :
    (dats m 0 c).flushed 3 t = ((cfg0.win 3).blk t).view.read (Elt Ideal) (out (m ((c : Thread nD τ).loc main_arg0)) (m ((c : Thread nD τ).loc main_arg1)) (m ((c : Thread nD τ).loc main_arg2))) := by
  have h7 : t.val % 8 = 7 := (flush0_3 t).mp hf
  have h0 : ¬t.val % 8 = 0 := by omega
  obtain ⟨-, -, -, -, -, -, -, -, -, e0, e1, e2⟩ := idx_facts t
  rw [Value.flushed3]
  funext y
  obtain ⟨u, p, q, rfl⟩ : ∃ (u : Fin 1) (p q : Fin 1024), y = ix3 u p q := ⟨y 0, y 1, y 2, eq_ix3 y⟩
  obtain rfl : u = 0 := Subsingleton.elim _ _
  show (outsAt0 m c t.val t.isLt).1 (ix3 0 p q) = out (m ((c : Thread nD τ).loc main_arg0)) (m ((c : Thread nD τ).loc main_arg1)) (m ((c : Thread nD τ).loc main_arg2)) (((cfg0.win 3).blk t).view.emb (ix3 0 p q))
  rw [output_eq_store m c t h0 h7, Payload.store_apply, scratch_eq, zero_add, run_sum m c t h7 p q]
  unfold out
  congr 1 <;> apply Fin.ext
  · show t.val / 16 = win0_3.index t (0 : Fin 3) * 1 + 1 * 0; omega
  · show 1024 * (t.val / 8 % 2) + p.val = win0_3.index t (1 : Fin 3) * 1024 + 1 * p.val; omega
  · show q.val = win0_3.index t (2 : Fin 3) * 1024 + 1 * q.val; omega

/-- An index of the result array is in point t's block iff each coordinate is in the block's range on its axis. -/
theorem mem_blk (t : Fin cfg0.N) (i : S8x2048x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v3).slice (win0_3.rect t)).set ↔ _
  rw [View.set_slice_whole, Rect.mem_set_unit]
  exact Iff.rfl

/-- Every entry (e, r, q) of the result array is written back by the last point of the run of expert e and token tile
    r / 1024. -/
theorem cover (i : S8x2048x1024.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 1024 := (i 2).isLt
  obtain ⟨t, ht⟩ : ∃ t : Fin cfg0.N, t.val = 16 * (i 0).val + 8 * ((i 1).val / 1024) + 7 :=
    ⟨⟨16 * (i 0).val + 8 * ((i 1).val / 1024) + 7, by rw [show cfg0.N = 128 from N_0]; omega⟩, rfl⟩
  obtain ⟨-, -, -, -, -, -, -, -, -, e0, e1, e2⟩ := idx_facts t
  refine ⟨t, (flush0_3 t).mpr (by omega), ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-! ## The result array, and the run -/

/-- The result array ends holding the specification's output array of the argument arrays. -/
theorem final (c : Dev nD) : (dats m 0 c).arrAt 3 cfg0.N = out (m ((c : Thread nD τ).loc main_arg0)) (m ((c : Thread nD τ).loc main_arg1)) (m ((c : Thread nD τ).loc main_arg2)) :=
  (dats m 0 c).arrAt_eq_of_cover 3 (out (m ((c : Thread nD τ).loc main_arg0)) (m ((c : Thread nD τ).loc main_arg1)) (m ((c : Thread nD τ).loc main_arg2))) (flushed_eq m c) cover

/-- Every weakly fair execution of the kernel's program terminates with the result array at the specification and the
    arguments unchanged. -/
theorem run : θ_run defs (onTc (τ := τ) (main (F := Ideal))) ⟨m, fun _ => 0, ρ⟩ fun r => ∀ c : Dev nD,
      r.2.mem ((c : Thread nD τ).loc main_v3) = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Fold

end
-- ==== Proof.Reference.lean ====
/-
  The reference computes the specification. Its first contraction is, at entry (e, r, f), row r of expert e's tokens
  against row f of expert e's first weights — the pre-activation of hidden unit f; the activation chain that follows acts
  entry by entry and is gelu, its cube grouped (h · h) · h where the specification groups h · (h · h), the same extended
  real since the product commutes; its last contraction sums, over all 4096 hidden units f, the activation at (e, r, f)
  times the second weights at (e, f, q).
-/
import proofs.«101368_j42966852829514_2_alg».proof.Proof.Gen.ReferenceIdeal.Read
import proofs.«101368_j42966852829514_2_alg».proof.Proof.Spec

noncomputable section

namespace Cert.ReferenceIdeal.IsSpec

open Cert.ReferenceIdeal Cert.ReferenceIdeal.Gen Cert.ReferenceIdeal.Read Cert.MoeMlp
open Idealize.ShloMosaic Idealize.ShloMosaic.ValueIdx

variable (x : (⟨S8x2048x1024, .f32⟩ : BufTy).Contents (Elt Ideal)) (w1 w2 : (⟨S8x4096x1024, .f32⟩ : BufTy).Contents (Elt Ideal))

/-! ## The contractions' operand indices -/

theorem tokens_idx (e : Fin 8) (r : Fin 2048) (f : Fin 4096) (k : Fin 1024) :
    lidx_main_v0 (ix3 e r f) k = ix3 e r k :=
  funext fun a => Fin.ext (by match a with | ⟨0, _⟩ => rfl | ⟨1, _⟩ => rfl | ⟨2, _⟩ => rfl)

theorem w1_idx (e : Fin 8) (r : Fin 2048) (f : Fin 4096) (k : Fin 1024) :
    ridx_main_v0 (ix3 e r f) k = ix3 e f k :=
  funext fun a => Fin.ext (by match a with | ⟨0, _⟩ => rfl | ⟨1, _⟩ => rfl | ⟨2, _⟩ => rfl)

theorem act_idx (e : Fin 8) (r : Fin 2048) (q : Fin 1024) (f : Fin 4096) :
    lidx_main_v14 (ix3 e r q) f = ix3 e r f :=
  funext fun a => Fin.ext (by match a with | ⟨0, _⟩ => rfl | ⟨1, _⟩ => rfl | ⟨2, _⟩ => rfl)

theorem w2_idx (e : Fin 8) (r : Fin 2048) (q : Fin 1024) (f : Fin 4096) :
    ridx_main_v14 (ix3 e r q) f = ix3 e f q :=
  funext fun a => Fin.ext (by match a with | ⟨0, _⟩ => rfl | ⟨1, _⟩ => rfl | ⟨2, _⟩ => rfl)

/-! ## The three stages -/

/-- The first contraction at (e, r, f) is hidden unit f's pre-activation. -/
theorem pre_eq (e : Fin 8) (r : Fin 2048) (f : Fin 4096) :
    val_main_v0 (F := Ideal) x w1 (ix3 e r f) = hid x w1 e r f := by
  rw [val_main_v0_apply]
  unfold hid
  refine Finset.sum_congr rfl fun k _ => ?_
  rw [tokens_idx, w1_idx]

/-- The activation chain, entry by entry, is gelu of the pre-activation. -/
theorem act_eq (i : S8x2048x4096.Idx) :
    val_main_v13 (F := Ideal) x w1 i = gelu (val_main_v0 (F := Ideal) x w1 i) := by
  rw [val_main_v13_apply, val_main_v12_apply, val_main_v11_apply, val_main_cst_2_apply, val_main_v10_apply,
    val_main_v9_apply, val_main_cst_1_apply, val_main_v8_apply, val_main_v7_apply, val_main_v6_apply,
    val_main_cst_0_apply, val_main_v5_apply, val_main_v4_apply, val_main_v3_apply, val_main_cst_apply,
    val_main_v2_apply, val_main_v1_apply]
  exact gelu_cube_comm _

/-- The reference's result is the specification's output array. -/
theorem result_eq : val_main_v14 (F := Ideal) x w1 w2 = out x w1 w2 := by
  funext i
  obtain ⟨e, r, q, rfl⟩ : ∃ (e : Fin 8) (r : Fin 2048) (q : Fin 1024), i = ix3 e r q := ⟨i 0, i 1, i 2, eq_ix3 i⟩
  rw [val_main_v14_apply]
  show _ = outAt x w1 w2 e r q
  unfold outAt
  refine Finset.sum_congr rfl fun f _ => ?_
  rw [act_idx, w2_idx, act_eq, pre_eq]

end Cert.ReferenceIdeal.IsSpec

end
-- ==== Proof.lean ====
/- The proof of `Cert.Claim`. The kernel computes, for each expert e, token t and output column h,
   out[e,t,h] = Σ_f gelu(Σ_k x[e,t,k] · w1[e,f,k]) · w2[e,f,h]
   (gelu the tanh form), the sum over f taken in eight blocks of 512 accumulated across the last grid axis;
   the reference computes the same double sum in one piece. On the extended reals the two agree by
   commutativity of the product (the cube h·(h·h) against (h·h)·h) and by regrouping a finite sum in an
   additive commutative monoid; no finiteness of the inputs is used. -/
import proofs.«101368_j42966852829514_2_alg».proof.Defs
import proofs.«101368_j42966852829514_2_alg».proof.Proof.Gen.Kernel
import proofs.«101368_j42966852829514_2_alg».proof.Proof.Gen.Kernel.Skeleton
import proofs.«101368_j42966852829514_2_alg».proof.Proof.Gen.Kernel.Launch
import proofs.«101368_j42966852829514_2_alg».proof.Proof.Gen.Kernel.Points
import proofs.«101368_j42966852829514_2_alg».proof.Proof.Gen.Kernel.Frame
import proofs.«101368_j42966852829514_2_alg».proof.Proof.Gen.KernelIdeal
import proofs.«101368_j42966852829514_2_alg».proof.Proof.Gen.KernelIdeal.Skeleton
import proofs.«101368_j42966852829514_2_alg».proof.Proof.Gen.KernelIdeal.Launch
import proofs.«101368_j42966852829514_2_alg».proof.Proof.Gen.KernelIdeal.Points
import proofs.«101368_j42966852829514_2_alg».proof.Proof.Gen.KernelIdeal.Frame
import proofs.«101368_j42966852829514_2_alg».proof.Proof.Gen.ReferenceIdeal
import proofs.«101368_j42966852829514_2_alg».proof.Proof.Gen.KernelIdeal.Value
import proofs.«101368_j42966852829514_2_alg».proof.Proof.Gen.ReferenceIdeal.Run
import proofs.«101368_j42966852829514_2_alg».proof.Proof.Gen.ReferenceIdeal.Read
import proofs.«101368_j42966852829514_2_alg».proof.Proof.Fold
import proofs.«101368_j42966852829514_2_alg».proof.Proof.Reference
import proofs.«101368_j42966852829514_2_alg».proof.Proof.Gen.Pre_finite_inputs
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the three arguments, end with the result array at the specification's
    output array of those arguments: the kernel by its fold over each run of eight hidden blocks, the reference by its
    two contractions read entry by entry. -/
theorem algebraic : Cert.algebraic_KernelIdeal_ReferenceIdeal := by
  intro m ρ m' ρ' _ hagree
  refine ⟨fun c => Cert.MoeMlp.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.IsSpec.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
